-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S64x512x512 : Shape := ⟨3, ![64, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : IVec S64x512x512 32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  main_v3
-- ==== Kernel.lean ====
abbrev S64x1x512x512 : Shape := ⟨4, ![64, 1, 512, 512]⟩
abbrev S64x512x512 : Shape := ⟨3, ![64, 512, 512]⟩
abbrev S64x128 : Shape := ⟨2, ![64, 128]⟩
abbrev S8x1x512x512 : Shape := ⟨4, ![8, 1, 512, 512]⟩
abbrev S8x512x512 : Shape := ⟨3, ![8, 512, 512]⟩
abbrev S8x128 : Shape := ⟨2, ![8, 128]⟩
abbrev S1x1x512x512 : Shape := ⟨4, ![1, 1, 512, 512]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x128 : Shape := ⟨2, ![1, 128]⟩
abbrev S64x1 : Shape := ⟨2, ![64, 1]⟩
abbrev S64 : Shape := ⟨1, ![64]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S64x1x512x512, .f32⟩
  | .hbm, ⟨1, _⟩ => ⟨S64x512x512, .i32⟩
  | .hbm, ⟨2, _⟩ => ⟨S64x128, .f32⟩
  | .hbm, ⟨3, _⟩ => ⟨S64x1, .f32⟩
  | .hbm, ⟨4, _⟩ => ⟨S64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8x1x512x512, .f32⟩
  | .local _ .vmem, ⟨1, _⟩ => ⟨S8x1x512x512, .f32⟩
  | .local _ .vmem, ⟨2, _⟩ => ⟨S8x512x512, .i32⟩
  | .local _ .vmem, ⟨3, _⟩ => ⟨S8x512x512, .i32⟩
  | .local _ .vmem, ⟨4, _⟩ => ⟨S8x128, .f32⟩
  | .local _ .vmem, ⟨5, _⟩ => ⟨S8x128, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_off1 (k0_t1 : Fin k0_t1_loop.trips) : Fin 4 → Nat :=
  let c0_i32 : BitVec 32 := 0#32
  let c1_i32 : BitVec 32 := 1#32
  let arg4 : BitVec 32 := Scf.iv c0_i32 c1_i32 k0_t1
  let v4 : Index := Scalar.indexCast arg4
  let c0_2 : Index := 0#32
  let c0_3 : Index := 0#32
  let c0_4 : Index := 0#32
  ![v4.toNat, 0, 0, 0]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let v7 : Index := Scalar.indexCast arg4
  let c0_5 : Index := 0#32
  let c0_6 : Index := 0#32
  ![v7.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S1x1x512x512 : 0 < S1x1x512x512.numel
  shapeCasts_S1x1x512x512_S512x512 : S1x1x512x512.ShapeCasts S512x512
  h_S1x512x512 : 0 < S1x512x512.numel
  shapeCasts_S1x512x512_S512x512 : S1x512x512.ShapeCasts S512x512
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  broadcasts_S1x1_S1x128 : S1x1.Broadcasts S1x128
  iota_S8x128_d0_w32 : S8x128.Iotas .tc 32 [0]
  shapeCasts_S1x128_S1x128 : S1x128.ShapeCasts S1x128
  broadcasts_S1x128_S8x128 : S1x128.Broadcasts S8x128
  inb_S8x128_S8x128_0_0 : ∀ a, (![0, 0] : Fin 2 → Nat) a + S8x128.size a ≤ S8x128.size a
  h_S8x128 : 0 < S8x128.numel
  slices_S64x128_S64x1_0_0 : S64x128.Slices ![0, 0] S64x1
  shapeCasts_S64x1_S64 : S64x1.ShapeCasts S64
  reducesTo_S64_S_d0 : S64.ReducesTo [0] S_
  h_S_ : 0 < S_.numel
  hrank0 : 0 < grid0.rank
  k0_t1_ok : k0_t1_loop.OK
  k0_off1_inb : ∀ k0_t1 : Fin k0_t1_loop.trips, ∀ a, (k0_off1 k0_t1) a + S1x1x512x512.size a ≤ S8x1x512x512.size a
  k0_off2_inb : ∀ k0_t1 : Fin k0_t1_loop.trips, ∀ a, (k0_off2 k0_t1) a + S1x512x512.size a ≤ S8x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x512x512.size a ≤ S64x1x512x512.size a
  hwx0_0 : ∀ i : grid0.Coords, EltTy.bits .f32 = 32 ∨ (Rect.block (s := S64x1x512x512) S8x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S64x512x512.size a
  hwx0_1 : ∀ i : grid0.Coords, EltTy.bits .i32 = 32 ∨ (Rect.block (s := S64x512x512) S8x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

abbrev win0_0 : Pipeline.Window sig grid0 :=
  Pipeline.Window.ofSpec (Memref.whole main_arg0) S8x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S64x512x512 : Shape := ⟨3, ![64, 512, 512]⟩
abbrev S_ : Shape := ⟨0, ![]⟩
abbrev S64 : Shape := ⟨1, ![64]⟩

abbrev nBuf : Space → Nat
  | .hbm => 80
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x512x512, .i32⟩
  | .hbm, ⟨2, _⟩ => ⟨S64x512x512, .f32⟩
  | .hbm, ⟨3, _⟩ => ⟨S_, .i32⟩
  | .hbm, ⟨4, _⟩ => ⟨S64x512x512, .i32⟩
  | .hbm, ⟨5, _⟩ => ⟨S64x512x512, .i1⟩
  | .hbm, ⟨6, _⟩ => ⟨S64x512x512, .f32⟩
  | .hbm, ⟨7, _⟩ => ⟨S64x512x512, .f32⟩
  | .hbm, ⟨8, _⟩ => ⟨S64x512x512, .f32⟩
  | .hbm, ⟨9, _⟩ => ⟨S_, .f32⟩
  | .hbm, ⟨10, _⟩ => ⟨S64x512x512, .f32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .i1⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64x512x512, .f32⟩
  | .hbm, ⟨38, _⟩ => ⟨S64x512x512, .f32⟩
  | .hbm, ⟨39, _⟩ => ⟨S64x512x512, .f32⟩
  | .hbm, ⟨40, _⟩ => ⟨S64x512x512, .f32⟩
  | .hbm, ⟨41, _⟩ => ⟨S64x512x512, .f32⟩
  | .hbm, ⟨42, _⟩ => ⟨S64x512x512, .f32⟩
  | .hbm, ⟨43, _⟩ => ⟨S64x512x512, .f32⟩
  | .hbm, ⟨44, _⟩ => ⟨S64x512x512, .f32⟩
  | .hbm, ⟨45, _⟩ => ⟨S64x512x512, .f32⟩
  | .hbm, ⟨46, _⟩ => ⟨S_, .f32⟩
  | .hbm, ⟨47, _⟩ => ⟨S64x512x512, .f32⟩
  | .hbm, ⟨48, _⟩ => ⟨S64x512x512, .i1⟩
  | .hbm, ⟨49, _⟩ => ⟨S_, .f32⟩
  | .hbm, ⟨50, _⟩ => ⟨S64x512x512, .f32⟩
  | .hbm, ⟨51, _⟩ => ⟨S64x512x512, .f32⟩
  | .hbm, ⟨52, _⟩ => ⟨S64x512x512, .f32⟩
  | .hbm, ⟨53, _⟩ => ⟨S_, .f32⟩
  | .hbm, ⟨54, _⟩ => ⟨S64x512x512, .f32⟩
  | .hbm, ⟨55, _⟩ => ⟨S64x512x512, .f32⟩
  | .hbm, ⟨56, _⟩ => ⟨S_, .f32⟩
  | .hbm, ⟨57, _⟩ => ⟨S64x512x512, .f32⟩
  | .hbm, ⟨58, _⟩ => ⟨S64x512x512, .f32⟩
  | .hbm, ⟨59, _⟩ => ⟨S64x512x512, .f32⟩
  | .hbm, ⟨60, _⟩ => ⟨S_, .f32⟩
  | .hbm, ⟨61, _⟩ => ⟨S64x512x512, .f32⟩
  | .hbm, ⟨62, _⟩ => ⟨S64x512x512, .i1⟩
  | .hbm, ⟨63, _⟩ => ⟨S_, .f32⟩
  | .hbm, ⟨64, _⟩ => ⟨S_, .f32⟩
  | .hbm, ⟨65, _⟩ => ⟨S64x512x512, .f32⟩
  | .hbm, ⟨66, _⟩ => ⟨S64x512x512, .f32⟩
  | .hbm, ⟨67, _⟩ => ⟨S64x512x512, .f32⟩
  | .hbm, ⟨68, _⟩ => ⟨S64x512x512, .f32⟩
  | .hbm, ⟨69, _⟩ => ⟨S64x512x512, .f32⟩
  | .hbm, ⟨70, _⟩ => ⟨S_, .f32⟩
  | .hbm, ⟨71, _⟩ => ⟨S64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_cst_8 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_cst_15 : Ref sig .tc := ⟨.hbm, 64, rfl⟩
abbrev main_call2_v0 : Ref sig .tc := ⟨.hbm, 65, rfl⟩
abbrev main_call2_v1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_16 : Ref sig .tc := ⟨.hbm, 70, rfl⟩
abbrev main_v46 : Ref sig .tc := ⟨.hbm, 71, rfl⟩
abbrev main_cst_17 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_18 : Ref sig .tc := ⟨.hbm, 76, rfl⟩
abbrev main_v50 : Ref sig .tc := ⟨.hbm, 77, rfl⟩
abbrev main_cst_19 : Ref sig .tc := ⟨.hbm, 78, rfl⟩
abbrev main_v51 : Ref sig .tc := ⟨.hbm, 79, rfl⟩

abbrev nD : Nat := 1
abbrev τ : Topo := Topo.v7x

variable {F : FTy → Type} [FloatOps F]

class Facts₀ : Prop where
  shapeCasts_S64x1x512x512_S64x512x512 : S64x1x512x512.ShapeCasts S64x512x512
  bcast_S_S64x512x512 : S_.BroadcastsInDim S64x512x512 (![] : Fin 0 → Fin S64x512x512.rank)
  reducesTo_S64x512x512_S64_d1_2 : S64x512x512.ReducesTo [1, 2] S64
  h_S_ : 0 < S_.numel
  bcast_S_S64 : S_.BroadcastsInDim S64 (![] : Fin 0 → Fin S64.rank)
  reducesTo_S64_S_d0 : S64.ReducesTo [0] S_

variable [Facts₀]

class Facts : Prop extends Facts₀ where

variable [Facts]
-- ==== Proof.KernelTrip.lean ====
/-
  One trip of the kernel's loop over the eight samples of a block.

  At trip k the body loads sample k of the block's logits (a [1, 1, 512, 512] piece of the [8, 1, 512, 512] block) and
  sample k of the block's targets (a [1, 512, 512] piece of [8, 512, 512]), and yields the carried [8, 128] tile plus
  that sample's value on row k. The loads read the block at the piece's indices; what the trip yields is the
  accumulate step's function of the carried tile, the trip's counter and the two pieces.
-/
import proofs.«166067_j49306224558105_2_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F]

/-- The piece of the logits block that trip k loads, and of the targets block. -/
abbrev pieceX (k : Fin k0_t1_loop.trips) : LoadRect S8x1x512x512 :=
  (Rect.unit (s := S8x1x512x512) (k0_off1 k) S1x1x512x512.size (k0_off1_inb k)).toLoadRect
abbrev pieceT (k : Fin k0_t1_loop.trips) : LoadRect S8x512x512 :=
  (Rect.unit (s := S8x512x512) (k0_off2 k) S1x512x512.size (k0_off2_inb k)).toLoadRect

/-- Sample k of a logits block, and of a targets block. -/
def sampleX (x0 : Vec F S8x1x512x512 .f32) (k : Fin k0_t1_loop.trips) : Vec F S1x1x512x512 .f32 :=
  fun y => x0 ((pieceX k).idx y)
def sampleT (x1 : Vec F S8x512x512 .i32) (k : Fin k0_t1_loop.trips) : Vec F S1x512x512 .i32 :=
  fun y => x1 ((pieceT k).idx y)

/-- What trip k yields from the carried tile: the accumulate step at the trip's counter and sample k of each block. -/
theorem trip_eq (c : Dev nD) (i : grid0.Coords) (arg1 : Memref sig .tc .vmem S8x1x512x512 .f32) (harg1 : arg1.IsWhole)
    (arg2 : Memref sig .tc .vmem S8x512x512 .i32) (harg2 : arg2.IsWhole) (arg3 : Memref sig .tc .vmem S8x128 .f32) (harg3 : arg3.IsWhole)
    (x0 : Vec F S8x1x512x512 .f32) (x1 : Vec F S8x512x512 .i32) (k : Fin k0_t1_loop.trips) (acc : FVec F S8x128 .f32) :
    tripR_k0_t1 (F := F) Variants.none c none i arg1 harg1 arg2 harg2 arg3 harg3 (harg1.unread x0) (harg2.unread x1) k acc
      = k0_pay2 acc (Scf.iv 0#32 1#32 k) (k0_pay3 (sampleT x1 k)) (k0_pay4 (sampleX x0 k) (sampleT x1 k)) (k0_pay5 (sampleT x1 k))
          (FloatOps.ofBits .f32 0x3E800000#32) (FloatOps.ofBits .f32 0x3F400000#32) := by
  have hX : View.readAt (Elt F) arg1.view (pieceX k) (harg1.unread x0) = sampleX x0 k := by
    funext y
    show arg1.view.read (Elt F) (harg1.unread x0) ((pieceX k).idx y) = x0 ((pieceX k).idx y)
    rw [harg1.read_unread]
  have hT : View.readAt (Elt F) arg2.view (pieceT k) (harg2.unread x1) = sampleT x1 k := by
    funext y
    show arg2.view.read (Elt F) (harg2.unread x1) ((pieceT k).idx y) = x1 ((pieceT k).idx y)
    rw [harg2.read_unread]
  unfold tripR_k0_t1 trip_k0_t1
  show k0_pay2 acc (Scf.iv 0#32 1#32 k)
      (k0_pay3 (View.readAt (Elt F) arg2.view (pieceT k) (harg2.unread x1)))
      (k0_pay4 (View.readAt (Elt F) arg1.view (pieceX k) (harg1.unread x0)) (View.readAt (Elt F) arg2.view (pieceT k) (harg2.unread x1)))
      (k0_pay5 (View.readAt (Elt F) arg2.view (pieceT k) (harg2.unread x1)))
      (FloatOps.ofBits .f32 0x3E800000#32) (FloatOps.ofBits .f32 0x3F400000#32) = _
  rw [hX, hT]

end Cert.KernelIdeal.Body

end
-- ==== Proof.FocalLaw.lean ====
/-
  The arithmetic of the size-weighted focal loss on the extended reals, one pixel and one sample at a time.

  A pixel has a logit x (a real number: the inputs are finite) and a mask value T. Both programs form
    bce   = max(x, 0) − x·T + log(1 + e^(−|x|)),
    σ     = the logistic of x,      pt = σ if T = 1, else 1 − σ,
    pixel = α(T) · (1 − pt)² · bce, α(T) = 1/4 if T = 1, else 3/4,
  and differ in three spellings. The kernel computes e = e^(0 − |x|) once and takes σ = 1/(1 + e) for x ≥ 0 and
  e/(1 + e) for x < 0; the reference takes σ = 1/(1 + e^(−x)). For x ≥ 0, |x| = x and the two are the same
  expression; for x < 0, e = e^x and e^x/(1 + e^x) = 1/(1 + e^(−x)) because e^(−x) = 1/e^x. The kernel squares
  1 − pt by a product, the reference by the power function at exponent 2: 1 − pt is a real number, and a real
  number's power 2 is its square. And 0 − a = −a.

  A sample has the sum S of its pixels and the count fg of its foreground pixels. Both programs form
    mean · w,   w = min(100 / √max(fg, 1), 10) if fg > 0, else 1.
  The kernel takes mean = S · 2⁻¹⁸ and the square root; the reference takes mean = S / 262144 and the power
  function at exponent 1/2. Dividing by the real 262144 = 2¹⁸ is multiplying by its reciprocal on every extended
  real, and on [1, +∞] the square root is the power 1/2 (both +∞ at +∞).
-/
import Idealize.ShloMosaic.PureOps.Ideal
import Idealize.ShloMosaic.PureOps.Ideal.Laws
import Mathlib.Analysis.SpecialFunctions.Pow.Real
import Mathlib.Analysis.SpecialFunctions.Sqrt

noncomputable section

namespace Cert.FocalLaw

open Idealize.ShloMosaic

/-! ## The float words of the two programs, as extended reals -/

abbrev W0 : EReal := Ideal.ofBits .f32 0x00000000#32
abbrev W1 : EReal := Ideal.ofBits .f32 0x3F800000#32
abbrev W2 : EReal := Ideal.ofBits .f32 0x40000000#32
abbrev Whalf : EReal := Ideal.ofBits .f32 0x3F000000#32
abbrev Wquarter : EReal := Ideal.ofBits .f32 0x3E800000#32
abbrev W3quarter : EReal := Ideal.ofBits .f32 0x3F400000#32
abbrev W100 : EReal := Ideal.ofBits .f32 0x42C80000#32
abbrev W10 : EReal := Ideal.ofBits .f32 0x41200000#32
abbrev WinvHW : EReal := Ideal.ofBits .f32 0x36800000#32
abbrev WHW : EReal := Ideal.ofBits .f32 0x48800000#32

theorem w0 : W0 = 0 := by simp [W0, Ideal.ofBits, Ideal.ieee]
theorem w1 : W1 = ((1 : ℝ) : EReal) := by
  simp [W1, Ideal.ofBits, Ideal.ieee, -EReal.coe_mul]; norm_num
theorem w2 : W2 = ((2 : ℝ) : EReal) := by
  simp [W2, Ideal.ofBits, Ideal.ieee, -EReal.coe_mul]; norm_num
theorem whalf : Whalf = ((1 / 2 : ℝ) : EReal) := by
  simp [Whalf, Ideal.ofBits, Ideal.ieee, -EReal.coe_mul]; norm_num
theorem winvHW : WinvHW = ((1 / 262144 : ℝ) : EReal) := by
  simp [WinvHW, Ideal.ofBits, Ideal.ieee, -EReal.coe_mul]; norm_num
theorem wHW : WHW = ((262144 : ℝ) : EReal) := by
  simp [WHW, Ideal.ofBits, Ideal.ieee, -EReal.coe_mul]; norm_num

/-! ## One pixel, as each program spells it -/

/-- e^(−|x|) as the kernel forms it, from 0 − |x|. -/
def expK (x : EReal) : EReal := Ideal.exp (W0 - max x (-x))
/-- e^(−|x|) as the reference forms it, from −|x|. -/
def expR (x : EReal) : EReal := Ideal.exp (-(max x (-x)))

def bceK (x T : EReal) : EReal := (max x W0 - x * T) + Ideal.log1p (expK x)
def bceR (x T : EReal) : EReal := (max x W0 - x * T) + Ideal.log1p (expR x)

/-- The kernel's logistic, from the shared e = e^(−|x|): 1/(1 + e) where x ≥ 0, e/(1 + e) elsewhere. -/
def sigK (x : EReal) : EReal :=
  Scalar.select (Ideal.cmp .oge x W0) (Ideal.div W1 (W1 + expK x)) (Ideal.div (expK x) (W1 + expK x))
/-- The reference's logistic, 1/(1 + e^(−x)). -/
def sigR (x : EReal) : EReal := Ideal.div W1 (W1 + Ideal.exp (-x))

def ptK (x T : EReal) : EReal := Scalar.select (Ideal.cmp .oeq T W1) (sigK x) (W1 - sigK x)
def ptR (x T : EReal) : EReal := Scalar.select (Ideal.cmp .oeq T W1) (sigR x) (W1 - sigR x)

def focalK (x T : EReal) : EReal := ((W1 - ptK x T) * (W1 - ptK x T)) * bceK x T
def focalR (x T : EReal) : EReal := Ideal.pow (W1 - ptR x T) W2 * bceR x T

/-- The class weight: 1/4 on the foreground, 3/4 elsewhere (the same words in both programs). -/
def alpha (T : EReal) : EReal := Scalar.select (Ideal.cmp .oeq T W1) Wquarter W3quarter

def pixK (x T : EReal) : EReal := alpha T * focalK x T
def pixR (x T : EReal) : EReal := alpha T * focalR x T

/-! ## The laws -/

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-- |x| as the maximum of x and −x. -/
theorem max_neg_coe (x : ℝ) : max (x : EReal) (-(x : EReal)) = ((|x| : ℝ) : EReal) := by
  rw [← EReal.coe_neg, abs_eq_max_neg]
  exact (EReal.coe_strictMono.monotone.map_max).symm

theorem expK_coe (x : ℝ) : expK x = ((Real.exp (-|x|) : ℝ) : EReal) := by
  unfold expK
  rw [w0, zero_sub, max_neg_coe, ← EReal.coe_neg, Ideal.exp_coe]

theorem expR_coe (x : ℝ) : expR x = ((Real.exp (-|x|) : ℝ) : EReal) := by
  unfold expR
  rw [max_neg_coe, ← EReal.coe_neg, Ideal.exp_coe]

theorem cmp_oge_zero (x : ℝ) : Ideal.cmp .oge (x : EReal) 0 = if 0 ≤ x then 1#1 else 0#1 := by
  unfold Ideal.cmp
  by_cases h : 0 ≤ x <;> simp [h, EReal.coe_nonneg]

/-- The reference's logistic of a real is a real. -/
theorem sigR_coe (x : ℝ) : sigR x = ((1 / (1 + Real.exp (-x)) : ℝ) : EReal) := by
  unfold sigR
  have hR : (1 + Real.exp (-x)) ≠ 0 := (by positivity : (0 : ℝ) < 1 + Real.exp (-x)).ne'
  rw [w1, ← EReal.coe_neg, Ideal.exp_coe, ← EReal.coe_add, div_coe_coe _ hR]

/-- The kernel's two-branch logistic is the logistic: on x ≥ 0 the same expression, on x < 0 the identity
    e^x / (1 + e^x) = 1 / (1 + e^(−x)). -/
theorem sigK_eq (x : ℝ) : sigK x = sigR x := by
  rw [sigR_coe]
  unfold sigK
  have hK : (1 + Real.exp (-|x|)) ≠ 0 := (by positivity : (0 : ℝ) < 1 + Real.exp (-|x|)).ne'
  rw [expK_coe, w0, w1, ← EReal.coe_add, div_coe_coe _ hK, div_coe_coe _ hK, cmp_oge_zero]
  by_cases hx : 0 ≤ x
  · rw [if_pos hx, abs_of_nonneg hx]; rfl
  · rw [if_neg hx]
    have hx' : x < 0 := lt_of_not_ge hx
    rw [abs_of_neg hx', neg_neg]
    show ((Real.exp x / (1 + Real.exp x) : ℝ) : EReal) = _
    congr 1
    rw [Real.exp_neg]
    have : Real.exp x ≠ 0 := (Real.exp_pos x).ne'
    field_simp
    ring

theorem ptK_eq (x : ℝ) (T : EReal) : ptK x T = ptR x T := by
  unfold ptK ptR; rw [sigK_eq]

/-- One minus the probability of the true class is a real number. -/
theorem one_sub_ptR_real (x : ℝ) (T : EReal) : ∃ y : ℝ, W1 - ptR x T = (y : EReal) := by
  unfold ptR
  rw [sigR_coe, w1]
  by_cases h : Ideal.cmp .oeq T ((1 : ℝ) : EReal) = 1
  · refine ⟨1 - 1 / (1 + Real.exp (-x)), ?_⟩
    show ((1 : ℝ) : EReal) - (if Ideal.cmp .oeq T ((1 : ℝ) : EReal) = 1 then _ else _) = _
    rw [if_pos h, ← EReal.coe_sub]
  · refine ⟨1 - (1 - 1 / (1 + Real.exp (-x))), ?_⟩
    show ((1 : ℝ) : EReal) - (if Ideal.cmp .oeq T ((1 : ℝ) : EReal) = 1 then _ else _) = _
    rw [if_neg h, ← EReal.coe_sub, ← EReal.coe_sub]

/-- A real number's power 2 is its square. -/
theorem sq_eq_pow_two (y : ℝ) : (y : EReal) * (y : EReal) = Ideal.pow (y : EReal) W2 := by
  rw [w2, Ideal.pow_coe_coe, ← EReal.coe_mul]
  congr 1
  show y * y = y ^ (2 : ℝ)
  rw [Real.rpow_two, sq]

theorem bceK_eq (x T : EReal) : bceK x T = bceR x T := by
  unfold bceK bceR expK expR
  rw [w0, zero_sub]

/-- THE PIXEL: for a real logit the kernel's pixel is the reference's, whatever the mask value. -/
theorem pixK_eq (x : ℝ) (T : EReal) : pixK x T = pixR x T := by
  unfold pixK pixR focalK focalR
  rw [ptK_eq, bceK_eq]
  obtain ⟨y, hy⟩ := one_sub_ptR_real x T
  rw [hy, sq_eq_pow_two]

/-! ## One sample -/

/-- The size weight as the kernel spells it (square root) and as the reference does (power 1/2). -/
def swK (fg : EReal) : EReal :=
  Scalar.select (Ideal.cmp .ogt fg W0) (min (Ideal.div W100 (Ideal.sqrt (max fg W1))) W10) W1
def swR (fg : EReal) : EReal :=
  Scalar.select (Ideal.cmp .ogt fg W0) (min (Ideal.div W100 (Ideal.pow (max fg W1) Whalf)) W10) W1

/-- On [1, +∞] the square root is the power 1/2. -/
theorem sqrt_eq_pow_half (y : EReal) (hy : W1 ≤ y) : Ideal.sqrt y = Ideal.pow y Whalf := by
  rw [whalf]
  rw [w1] at hy
  induction y using EReal.rec with
  | bot => exact absurd (le_bot_iff.mp hy) (EReal.coe_ne_bot 1)
  | top =>
    rw [Ideal.sqrt_top, Ideal.pow_top, if_pos (by rw [EReal.coe_pos]; norm_num)]
  | coe r =>
    have hr : (1 : ℝ) ≤ r := EReal.coe_le_coe_iff.mp hy
    rw [Ideal.sqrt_coe, if_neg (by linarith), Ideal.pow_coe_coe]
    congr 1
    exact Real.sqrt_eq_rpow r

theorem swK_eq (fg : EReal) : swK fg = swR fg := by
  unfold swK swR
  rw [sqrt_eq_pow_half _ (le_max_right _ _)]

/-- The sample's value from the sum of its pixels and its foreground count. -/
def perK (S fg : EReal) : EReal := (S * WinvHW) * swK fg
def perR (S fg : EReal) : EReal := Ideal.div S WHW * swR fg

/-- Multiplying by 2⁻¹⁸ is dividing by 262144, on every extended real. -/
theorem perK_eq (S fg : EReal) : perK S fg = perR S fg := by
  unfold perK perR
  rw [swK_eq, winvHW, wHW, Ideal.div_coe (by norm_num)]

end Cert.FocalLaw

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.LibKeepdimsTotal.lean ====
/-
  The total of a matrix, taken in two keep-dims steps and read at its one entry.

  A kernel totals an `[a, b]` vector by summing along the lanes (one number per row), laying the row sums out as the
  column `[a, 1]`, summing that column along its rows (one number, a `[1]` vector) and laying it out as `[1, 1]`.
  At the ideal values the one entry of the result is the double sum `∑ r, ∑ c, X (r, c)`: each step is a plain finite
  sum, and the layout steps move no value. For any extents and any float format, whatever the (neutral) accumulator
  words.
-/
import Idealize.ShloMosaic.Lib.Pipeline.Value
import Idealize.ShloMosaic.Lib.ValueIdx
import Idealize.ShloMosaic.PureOps.Ideal.Laws
import proofs.«166067_j49306224558105_2_alg».proof.Proof.LibColumn
import proofs.«166067_j49306224558105_2_alg».proof.Proof.LibRowSum

noncomputable section

open scoped BigOperators

namespace Cert.LibKeepdimsTotal

open Idealize.ShloMosaic Idealize.ShloMosaic.ValueIdx

/-- The sum of an `[a, 1]` column along its rows, read at the one entry of the `[1]` result: `∑ r, col (r, 0)`. -/
theorem multiReduction_add_column_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction .add [0] ⟨1, ![1]⟩ src acc h hφ hacc (ix1 u) = ∑ r : Fin a, src (ix2 r (0 : Fin 1)) :=
  (Ideal.multiReduction_add_single src acc h hφ hacc (ix1 u)).trans
    (Finset.sum_congr rfl fun k _ => congrArg src (funext fun ax => Fin.ext (by
      match ax with
      | ⟨0, _⟩ => rfl
      | ⟨1, _⟩ =>
        have hu : u.val = 0 := by omega
        exact hu)))

/-- The two-step keep-dims total of an `[a, b]` vector, read at any index of its `[1, 1]` result, is the double sum. -/
theorem keepdims_total_apply {a b : ℕ} {φ : FTy} (X : FVec Ideal ⟨2, ![a, b]⟩ φ) (acc acc' : BitVec φ.bits)
    (h1 : (⟨2, ![a, b]⟩ : Shape).Reduces [1] ⟨1, ![a]⟩) (hφ : FKind.Formats φ) (hacc : acc = FKind.add.neutral φ hφ)
    (h2 : (⟨1, ![a]⟩ : Shape).ShapeCasts ⟨2, ![a, 1]⟩)
    (h3 : (⟨2, ![a, 1]⟩ : Shape).Reduces [0] ⟨1, ![1]⟩) (hφ' : FKind.Formats φ) (hacc' : acc' = FKind.add.neutral φ hφ')
    (h4 : (⟨1, ![1]⟩ : Shape).ShapeCasts ⟨2, ![1, 1]⟩) (y : (⟨2, ![1, 1]⟩ : Shape).Idx) :
    shapeCast ⟨2, ![1, 1]⟩
        (multiReduction .add [0] ⟨1, ![1]⟩
          (shapeCast ⟨2, ![a, 1]⟩ (multiReduction .add [1] ⟨1, ![a]⟩ X acc h1 hφ hacc) h2) acc' h3 hφ' hacc') h4 y
      = ∑ r : Fin a, ∑ c : Fin b, X (ix2 r c) := by
  obtain ⟨p, u, rfl⟩ : ∃ (p : Fin 1) (u : Fin 1), y = ix2 p u := ⟨y 0, y 1, eq_ix2 y⟩
  rw [LibColumn.shapeCast_a_a1_apply _ h4 p u, multiReduction_add_column_apply]
  refine Finset.sum_congr rfl fun r _ => ?_
  rw [LibColumn.shapeCast_a_a1_apply _ h2 r (0 : Fin 1), LibRowSum.multiReduction_add_lanes_apply]

end Cert.LibKeepdimsTotal

end
-- ==== Proof.KernelStep.lean ====
/-
  The accumulate step of the kernel's loop, read at an entry (p, l) of the carried [8, 128] tile.

  From one sample's logits x and targets the step forms the mask T = 1 where the target is positive, else 0; the pixel
  values α(T) · (1 − pt)² · bce; their total S and the foreground count fg, each by lane sums kept as a column and then
  the column's sum; the sample's value S · 2⁻¹⁸ · w(fg); and spreads that one number over a row of 128 lanes and over the
  eight rows. It adds it to the carried tile on the row whose number is the trip's counter, and adds 0 elsewhere.
  So at (p, l) the step yields the carried entry plus the sample's value if p is the counter, plus 0 if not.
-/
import proofs.«166067_j49306224558105_2_alg».proof.Proof.KernelTrip
import proofs.«166067_j49306224558105_2_alg».proof.Proof.FocalLaw
import proofs.«166067_j49306224558105_2_alg».proof.Proof.LibKeepdimsTotal
import Idealize.ShloMosaic.Lib.ValueLayout

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open scoped BigOperators

/-! ## Layout steps -/

/-- A [1, 1] index set has one index. -/
theorem idx11_eq (y : S1x1.Idx) : y = ix2 (0 : Fin 1) (0 : Fin 1) := by
  funext d
  match d with
  | ⟨0, _⟩ => exact Fin.ext (Nat.lt_one_iff.mp (y 0).isLt)
  | ⟨1, _⟩ => exact Fin.ext (Nat.lt_one_iff.mp (y 1).isLt)

/-- One number spread over a row of lanes and then over the rows reads that number everywhere. -/
theorem spread_apply {α : Type} (v : S1x1.Idx → α) (h1 : S1x1.ShapeCasts S1x1) (h2 : S1x1.Broadcasts S1x128)
    (h3 : S1x128.ShapeCasts S1x128) (h4 : S1x128.Broadcasts S8x128) (y : S8x128.Idx) :
    broadcastTo S8x128 (shapeCast S1x128 (broadcastTo S1x128 (shapeCast S1x1 v h1) h2) h3) h4 y = v (ix2 0 0) := by
  rw [shapeCast_self, shapeCast_self]
  unfold broadcastTo
  exact congrArg v (idx11_eq _)

/-- A [1, 1, a, b] piece viewed as the matrix [a, b] reads, at (i, j), the piece at (0, 0, i, j). -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- The two-step keep-dims total of an f32 matrix from the zero word, with the accumulator facts spelt as the body
    spells them (the word is the zero word), is the double sum. -/
theorem total_apply {a b : ℕ} (X : FVec Ideal ⟨2, ![a, b]⟩ .f32)
    (h1 : (⟨2, ![a, b]⟩ : Shape).Reduces [1] ⟨1, ![a]⟩) (hφ : FKind.Formats .f32) (hacc : (0x00000000#32 : BitVec 32) = 0x00000000#32)
    (h2 : (⟨1, ![a]⟩ : Shape).ShapeCasts ⟨2, ![a, 1]⟩)
    (h3 : (⟨2, ![a, 1]⟩ : Shape).Reduces [0] ⟨1, ![1]⟩) (hφ' : FKind.Formats .f32) (hacc' : (0x00000000#32 : BitVec 32) = 0x00000000#32)
    (h4 : (⟨1, ![1]⟩ : Shape).ShapeCasts ⟨2, ![1, 1]⟩) (y : (⟨2, ![1, 1]⟩ : Shape).Idx) :
    shapeCast ⟨2, ![1, 1]⟩
        (multiReduction .add [0] ⟨1, ![1]⟩
          (shapeCast ⟨2, ![a, 1]⟩ (multiReduction .add [1] ⟨1, ![a]⟩ X 0x00000000#32 h1 hφ hacc) h2) 0x00000000#32 h3 hφ' hacc') h4 y
      = ∑ r : Fin a, ∑ c : Fin b, X (ix2 r c) :=
  LibKeepdimsTotal.keepdims_total_apply X 0x00000000#32 0x00000000#32 h1 hφ hacc h2 h3 hφ' hacc' h4 y

/-! ## The per-pixel values -/

/-- The mask value of a target word: 1 where the word is positive, else 0 (the comparison's bit widened and read as a number). -/
def maskK (w : BitVec 32) : EReal := FloatOps.sitofp (F := Ideal) .f32 ((IntOp.cmpi .sgt w 0#32).setWidth 32)

theorem pay3_apply (tk : Vec Ideal S1x512x512 .i32) (r c : Fin 512) :
    k0_pay3 (F := Ideal) tk (ix2 r c) = maskK (tk (ix3 0 r c)) := by
  unfold k0_pay3
  show FloatOps.sitofp (F := Ideal) .f32
    ((IntOp.cmpi .sgt (shapeCast S512x512 tk shapeCasts_S1x512x512_S512x512 (ix2 r c)) 0#32).setWidth 32) = _
  rw [shapeCast_1ab_ab_apply]
  rfl

theorem pay5_apply (tk : Vec Ideal S1x512x512 .i32) (r c : Fin 512) :
    k0_pay5 (F := Ideal) tk (ix2 r c) = Ideal.cmp .oeq (maskK (tk (ix3 0 r c))) FocalLaw.W1 := by
  unfold k0_pay5
  show FloatOps.cmpf .oeq (k0_pay3 (F := Ideal) tk (ix2 r c)) (FloatOps.ofBits .f32 0x3F800000#32) = _
  rw [pay3_apply]
  rfl

theorem pay4_apply (xk : Vec Ideal S1x1x512x512 .f32) (tk : Vec Ideal S1x512x512 .i32) (r c : Fin 512) :
    k0_pay4 (F := Ideal) xk tk (ix2 r c) = FocalLaw.focalK (xk (ix4 0 0 r c)) (maskK (tk (ix3 0 r c))) := by
  have h : k0_pay4 (F := Ideal) xk tk (ix2 r c)
      = FocalLaw.focalK (shapeCast S512x512 xk shapeCasts_S1x1x512x512_S512x512 (ix2 r c)) (k0_pay3 (F := Ideal) tk (ix2 r c)) := rfl
  rw [h, shapeCast_11ab_ab_apply, pay3_apply]

/-! ## The step -/

/-- The accumulate step at (p, l), over any per-pixel vectors: the carried entry plus, on the counter's row, the
    sample's value from the total of the weighted pixels and the total of the mask. -/
theorem step_apply (acc : FVec Ideal S8x128 .f32) (a4 : BitVec 32) (v13 v42 : FVec Ideal S512x512 .f32) (v44 : IVec S512x512 1)
    (c18 c19 : Ideal .f32) (p : Fin 8) (l : Fin 128) :
    k0_pay2 (F := Ideal) acc a4 v13 v42 v44 c18 c19 (ix2 p l)
      = acc (ix2 p l) + Scalar.select (IntOp.cmpi .eq (BitVec.ofNat 32 p.val) a4)
          (FocalLaw.perK (∑ r : Fin 512, ∑ c : Fin 512, Scalar.select (v44 (ix2 r c)) c18 c19 * v42 (ix2 r c))
            (∑ r : Fin 512, ∑ c : Fin 512, v13 (ix2 r c)))
          FocalLaw.W0 := by
  unfold k0_pay2
  dsimp only
  rw [addf_apply, select_apply, spread_apply]
  simp only [mulf_apply, select_apply, cmpf_apply, minimumf_apply, divf_apply, maximumf_apply, broadcast_apply,
    Idealize.ShloMosaic.sqrt]
  rw [total_apply, total_apply]
  show acc (ix2 p l) + Scalar.select (IntOp.cmpi .eq (iota .tc S8x128 32 [0] iota_S8x128_d0_w32 (ix2 p l)) a4) _ _ = _
  rw [iota_single_apply]
  rfl

/-- The kernel's value of one sample, from its piece of the logits block and its piece of the targets block. -/
def sampleK (xk : Vec Ideal S1x1x512x512 .f32) (tk : Vec Ideal S1x512x512 .i32) : EReal :=
  FocalLaw.perK (∑ r : Fin 512, ∑ c : Fin 512, FocalLaw.pixK (xk (ix4 0 0 r c)) (maskK (tk (ix3 0 r c))))
    (∑ r : Fin 512, ∑ c : Fin 512, maskK (tk (ix3 0 r c)))

/-- One trip at (p, l): the carried entry plus the trip's sample value on the counter's row, 0 elsewhere. -/
theorem trip_apply (acc : FVec Ideal S8x128 .f32) (a4 : BitVec 32) (xk : Vec Ideal S1x1x512x512 .f32) (tk : Vec Ideal S1x512x512 .i32)
    (p : Fin 8) (l : Fin 128) :
    k0_pay2 (F := Ideal) acc a4 (k0_pay3 tk) (k0_pay4 xk tk) (k0_pay5 tk)
        (FloatOps.ofBits .f32 0x3E800000#32) (FloatOps.ofBits .f32 0x3F400000#32) (ix2 p l)
      = acc (ix2 p l) + Scalar.select (IntOp.cmpi .eq (BitVec.ofNat 32 p.val) a4) (sampleK xk tk) FocalLaw.W0 := by
  rw [step_apply]
  have e1 : ∀ r c : Fin 512,
      Scalar.select (k0_pay5 (F := Ideal) tk (ix2 r c)) (FloatOps.ofBits (F := Ideal) .f32 0x3E800000#32) (FloatOps.ofBits (F := Ideal) .f32 0x3F400000#32)
          * k0_pay4 (F := Ideal) xk tk (ix2 r c)
        = FocalLaw.pixK (xk (ix4 0 0 r c)) (maskK (tk (ix3 0 r c))) := fun r c => by
    rw [pay5_apply, pay4_apply]; rfl
  simp only [e1, pay3_apply]
  rfl

end Cert.KernelIdeal.Body

end
-- ==== Proof.KernelLoop.lean ====
/-
  What the kernel body leaves in its [8, 128] output block: row p holds the value of sample p of the block, on every lane.

  The body's one store writes the tile its loop carries. The loop starts from the zero tile and runs eight trips; trip
  k adds sample k's value on row k and 0 on the other rows. So before trip n, row p holds sample p's value if p < n and
  0 otherwise (induction on n: adding 0 changes nothing, and row n receives its value exactly at trip n), and after
  the eighth trip every row p < 8 holds its sample's value.
-/
import proofs.«166067_j49306224558105_2_alg».proof.Proof.KernelStep

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open scoped BigOperators

theorem hz : (![0, 0] : Fin 2 → Nat) = fun _ => 0 := funext fun a => by fin_cases a <;> rfl

/-- The loop runs eight trips. -/
theorem trips_eq : k0_t1_loop.trips = 8 := by decide

/-- Sample p of a block is the one trip p loads. -/
def tripOf (p : Fin 8) : Fin k0_t1_loop.trips := ⟨p.val, by rw [trips_eq]; exact p.isLt⟩

section Carried

variable {F : FTy → Type} [FloatOps F]

/-- The tile the loop carries before trip n, over the block's contents. -/
abbrev carried (c : Dev nD) (i : grid0.Coords) (arg1 : Memref sig .tc .vmem S8x1x512x512 .f32) (harg1 : arg1.IsWhole)
    (arg2 : Memref sig .tc .vmem S8x512x512 .i32) (harg2 : arg2.IsWhole) (arg3 : Memref sig .tc .vmem S8x128 .f32) (harg3 : arg3.IsWhole)
    (x0 : Vec F S8x1x512x512 .f32) (x1 : Vec F S8x512x512 .i32) (n : ℕ) : FVec F S8x128 .f32 :=
  st_k0_t1 (F := F) Variants.none c none i arg1 harg1 arg2 harg2 arg3 harg3 (harg1.unread x0) (harg2.unread x1) k0_pay1 n

/-- The body leaves in its output block the tile carried after the eighth trip: its one store covers the block. -/
theorem out_eq (c : Dev nD) (i : grid0.Coords) (arg1 : Memref sig .tc .vmem S8x1x512x512 .f32) (harg1 : arg1.IsWhole)
    (arg2 : Memref sig .tc .vmem S8x512x512 .i32) (harg2 : arg2.IsWhole) (arg3 : Memref sig .tc .vmem S8x128 .f32) (harg3 : arg3.IsWhole)
    (x0 : Vec F S8x1x512x512 .f32) (x1 : Vec F S8x512x512 .i32) :
    out0_A_2 (F := F) c i arg1 harg1 arg2 harg2 arg3 harg3 x0 x1 = carried c i arg1 harg1 arg2 harg2 arg3 harg3 x0 x1 8 := by
  unfold out0_A_2
  rw [View.read_writes_eq_canon _ _ _ (cover0_A_2 c i arg1 harg1 arg2 harg2 arg3 harg3 x0 x1)]
  unfold kernelRun0_A
  dsimp only
  rw [View.canon_unit_zero hz]
  exact congrArg (st_k0_t1 (F := F) Variants.none c none i arg1 harg1 arg2 harg2 arg3 harg3 (harg1.unread x0) (harg2.unread x1) k0_pay1)
    (by decide)

end Carried

/-- The row mask of trip b at row a: the row's number against the trip's counter. -/
theorem mask_row : ∀ a b : Fin 8,
    IntOp.cmpi .eq (BitVec.ofNat 32 a.val) (Scf.iv 0#32 1#32 b.val) = if a = b then 1#1 else 0#1 := by
  decide

/-- Before trip n, row p of the carried tile holds sample p's value if p < n, and 0 otherwise. -/
theorem carried_apply (c : Dev nD) (i : grid0.Coords) (arg1 : Memref sig .tc .vmem S8x1x512x512 .f32) (harg1 : arg1.IsWhole)
    (arg2 : Memref sig .tc .vmem S8x512x512 .i32) (harg2 : arg2.IsWhole) (arg3 : Memref sig .tc .vmem S8x128 .f32) (harg3 : arg3.IsWhole)
    (x0 : Vec Ideal S8x1x512x512 .f32) (x1 : Vec Ideal S8x512x512 .i32) (p : Fin 8) (l : Fin 128) :
    ∀ n : ℕ, n ≤ 8 → carried (F := Ideal) c i arg1 harg1 arg2 harg2 arg3 harg3 x0 x1 n (ix2 p l)
      = if p.val < n then sampleK (sampleX x0 (tripOf p)) (sampleT x1 (tripOf p)) else 0
  | 0, _ => by
    rw [if_neg (Nat.not_lt_zero _)]
    exact FocalLaw.w0
  | n + 1, hn => by
    have hn' : n < k0_t1_loop.trips := by rw [trips_eq]; omega
    have hs := st_k0_t1_succ (F := Ideal) Variants.none c none i arg1 harg1 arg2 harg2 arg3 harg3
      (harg1.unread x0) (harg2.unread x1) k0_pay1 ⟨n, hn'⟩
    show st_k0_t1 (F := Ideal) Variants.none c none i arg1 harg1 arg2 harg2 arg3 harg3
      (harg1.unread x0) (harg2.unread x1) k0_pay1 (n + 1) (ix2 p l) = _
    rw [hs, trip_eq, trip_apply]
    show carried (F := Ideal) c i arg1 harg1 arg2 harg2 arg3 harg3 x0 x1 n (ix2 p l)
      + Scalar.select (IntOp.cmpi .eq (BitVec.ofNat 32 p.val) (Scf.iv 0#32 1#32 (⟨n, by omega⟩ : Fin 8).val))
          (sampleK (sampleX x0 ⟨n, hn'⟩) (sampleT x1 ⟨n, hn'⟩)) FocalLaw.W0 = _
    rw [carried_apply c i arg1 harg1 arg2 harg2 arg3 harg3 x0 x1 p l n (by omega), mask_row]
    by_cases h1 : p.val < n
    · have hne : ¬p = (⟨n, by omega⟩ : Fin 8) := fun e => by have := congrArg Fin.val e; simp at this; omega
      rw [if_pos h1, if_neg hne, select_zero, FocalLaw.w0, add_zero, if_pos (by omega)]
    · by_cases h2 : p.val = n
      · have he : p = (⟨n, by omega⟩ : Fin 8) := Fin.ext h2
        have hk : tripOf p = ⟨n, hn'⟩ := Fin.ext h2
        rw [if_neg h1, if_pos he, select_one, zero_add, if_pos (by omega), hk]
      · have hne : ¬p = (⟨n, by omega⟩ : Fin 8) := fun e => h2 (congrArg Fin.val e)
        rw [if_neg h1, if_neg hne, select_zero, FocalLaw.w0, add_zero, if_neg (by omega)]

/-- THE BLOCK: after the body, entry (p, l) of the output block is the value of sample p of the block. -/
theorem out_apply (c : Dev nD) (i : grid0.Coords) (arg1 : Memref sig .tc .vmem S8x1x512x512 .f32) (harg1 : arg1.IsWhole)
    (arg2 : Memref sig .tc .vmem S8x512x512 .i32) (harg2 : arg2.IsWhole) (arg3 : Memref sig .tc .vmem S8x128 .f32) (harg3 : arg3.IsWhole)
    (x0 : Vec Ideal S8x1x512x512 .f32) (x1 : Vec Ideal S8x512x512 .i32) (p : Fin 8) (l : Fin 128) :
    out0_A_2 (F := Ideal) c i arg1 harg1 arg2 harg2 arg3 harg3 x0 x1 (ix2 p l)
      = sampleK (sampleX x0 (tripOf p)) (sampleT x1 (tripOf p)) := by
  rw [out_eq, carried_apply c i arg1 harg1 arg2 harg2 arg3 harg3 x0 x1 p l 8 le_rfl, if_pos p.isLt]

end Cert.KernelIdeal.Body

end
-- ==== Proof.KernelArray.lean ====
/-
  From the kernel's blocks to its result array.

  Point t of the grid (t = 0 … 7) stages samples 8t … 8t + 7 of the logits and of the targets and writes back rows
  8t … 8t + 7 of the [64, 128] result. Sample p of point t's block is sample 8t + p of the array (the block's index
  along the leading axis is the point's number, times the block's extent 8, plus the coordinate inside the block), so
  the block written back at point t is rows 8t … 8t + 7 of ONE function of the argument arrays: row b holds sample b's
  value on every lane. Row b lies in the block of point b / 8, so the blocks cover the array, and the array ends
  holding that function.
-/
import proofs.«166067_j49306224558105_2_alg».proof.Proof.KernelLoop
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

variable (m : (ℓ : Loc nD τ sig) → Buf (Elt Ideal) ℓ) (ρ : Dev nD → PrngReg)

/-- The windows' index maps over the grid: point t takes block t along the leading axis of each array, block 0 along the others. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The kernel's value of sample b, over the whole argument arrays. -/
def perSampleK (A0 : S64x1x512x512.Idx → EReal) (A1 : S64x512x512.Idx → BitVec 32) (b : Fin 64) : EReal :=
  FocalLaw.perK (∑ r : Fin 512, ∑ c : Fin 512, FocalLaw.pixK (A0 (ix4 b 0 r c)) (maskK (A1 (ix3 b r c))))
    (∑ r : Fin 512, ∑ c : Fin 512, maskK (A1 (ix3 b r c)))

/-- What the kernel's [64, 128] result array holds: row b is sample b's value, on every lane. -/
def GK (A0 : S64x1x512x512.Idx → EReal) (A1 : S64x512x512.Idx → BitVec 32) : S64x128.Idx → EReal :=
  fun j => perSampleK A0 A1 ⟨(j 0).val, idx2_lt0 j⟩

/-- Row p of point t's output block is row 8t + p of the result array. -/
theorem out_row (t : Fin cfg0.N) (p : Fin 8) (l : Fin 128) :
    (((cfg0.win 2).blk t).view.emb (ix2 p l) 0).val = t.val * 8 + p.val := by
  obtain ⟨-, -, -, -, -, -, -, e7, -⟩ := idx_facts t
  show win0_2.index t (0 : Fin 2) * 8 + 1 * p.val = _
  rw [e7]; omega

/-- Trip p's two loads start at sample p of the block. -/
theorem off1_tripOf (p : Fin 8) : k0_off1 (tripOf p) = ![p.val, 0, 0, 0] := k0_off1_eq (tripOf p)
theorem off2_tripOf (p : Fin 8) : k0_off2 (tripOf p) = ![p.val, 0, 0] := k0_off2_eq (tripOf p)

/-- Sample p of point t's logits block, at (0, 0, r, q), is the logits array at (8t + p, 0, r, q). -/
theorem blockX_apply (c : Dev nD) (t : Fin cfg0.N) (p : Fin 8) (b : Fin 64) (hb : b.val = t.val * 8 + p.val) (r q : Fin 512) :
    sampleX (iblk m c 0 t) (tripOf p) (ix4 0 0 r q) = V m c main_arg0 (ix4 b 0 r q) := by
  obtain ⟨e0, e1, e2, e3, -, -, -, -, -⟩ := idx_facts t
  show V m c main_arg0 (((cfg0.win 0).blk t).view.emb ((pieceX (tripOf p)).idx (ix4 0 0 r q))) = _
  refine congrArg (V m c main_arg0) (funext fun a => Fin.ext ?_)
  have ho := off1_tripOf p
  match a with
  | ⟨0, _⟩ =>
    show win0_0.index t (0 : Fin 4) * 8 + 1 * (k0_off1 (tripOf p) (0 : Fin 4) + 1 * 0) = b.val
    rw [e0, ho, hb]; show t.val * 8 + 1 * (p.val + 1 * 0) = _; omega
  | ⟨1, _⟩ =>
    show win0_0.index t (1 : Fin 4) * 1 + 1 * (k0_off1 (tripOf p) (1 : Fin 4) + 1 * 0) = 0
    rw [e1, ho]; rfl
  | ⟨2, _⟩ =>
    show win0_0.index t (2 : Fin 4) * 512 + 1 * (k0_off1 (tripOf p) (2 : Fin 4) + 1 * r.val) = r.val
    rw [e2, ho]; show 0 * 512 + 1 * (0 + 1 * r.val) = _; omega
  | ⟨3, _⟩ =>
    show win0_0.index t (3 : Fin 4) * 512 + 1 * (k0_off1 (tripOf p) (3 : Fin 4) + 1 * q.val) = q.val
    rw [e3, ho]; show 0 * 512 + 1 * (0 + 1 * q.val) = _; omega

/-- Sample p of point t's targets block, at (0, r, q), is the targets array at (8t + p, r, q). -/
theorem blockT_apply (c : Dev nD) (t : Fin cfg0.N) (p : Fin 8) (b : Fin 64) (hb : b.val = t.val * 8 + p.val) (r q : Fin 512) :
    sampleT (iblk m c 1 t) (tripOf p) (ix3 0 r q) = V m c main_arg1 (ix3 b r q) := by
  obtain ⟨-, -, -, -, e4, e5, e6, -, -⟩ := idx_facts t
  show V m c main_arg1 (((cfg0.win 1).blk t).view.emb ((pieceT (tripOf p)).idx (ix3 0 r q))) = _
  refine congrArg (V m c main_arg1) (funext fun a => Fin.ext ?_)
  have ho := off2_tripOf p
  match a with
  | ⟨0, _⟩ =>
    show win0_1.index t (0 : Fin 3) * 8 + 1 * (k0_off2 (tripOf p) (0 : Fin 3) + 1 * 0) = b.val
    rw [e4, ho, hb]; show t.val * 8 + 1 * (p.val + 1 * 0) = _; omega
  | ⟨1, _⟩ =>
    show win0_1.index t (1 : Fin 3) * 512 + 1 * (k0_off2 (tripOf p) (1 : Fin 3) + 1 * r.val) = r.val
    rw [e5, ho]; show 0 * 512 + 1 * (0 + 1 * r.val) = _; omega
  | ⟨2, _⟩ =>
    show win0_1.index t (2 : Fin 3) * 512 + 1 * (k0_off2 (tripOf p) (2 : Fin 3) + 1 * q.val) = q.val
    rw [e6, ho]; show 0 * 512 + 1 * (0 + 1 * q.val) = _; omega

/-- WHAT POINT t WRITES BACK is block t of the result array's function of the argument arrays. -/
theorem flushed_eq (c : Dev nD) (t : Fin cfg0.N) :
    (dats m 0 c).flushed 2 t = ((cfg0.win 2).blk t).view.read (Elt Ideal) (GK (V m c main_arg0) (V m c main_arg1)) := by
  show (cfg0.win 2).cut (grid0.coords t) ((dats m 0 c).after 2 t) = _
  rw [after0_2]
  unfold outsAt0
  funext j
  obtain ⟨p, l, rfl⟩ : ∃ (p : Fin 8) (l : Fin 128), j = ix2 p l := ⟨j 0, j 1, eq_ix2 j⟩
  show out0_A_2 (F := Ideal) c (grid0.coords t) (ms0_0 t) (hs0_0 t) (ms0_1 t) (hs0_1 t) (ms0_2 t) (hs0_2 t) (iblk m c 0 t) (iblk m c 1 t) (ix2 p l)
    = GK (V m c main_arg0) (V m c main_arg1) (((cfg0.win 2).blk t).view.emb (ix2 p l))
  rw [out_apply]
  unfold GK perSampleK sampleK
  have hb := out_row t p l
  simp only [blockX_apply m c t p _ hb, blockT_apply m c t p _ hb]
  rfl

/-- An index of the result array is in point t's block iff each coordinate is in the block's range on its axis. -/
theorem mem_blk (t : Fin cfg0.N) (i : S64x128.Idx) :
    i ∈ ((cfg0.win 2).blk t).view.set ↔ ∀ a : Fin 2, win0_2.index t a * S8x128.size a ≤ (i a).val
      ∧ (i a).val < win0_2.index t a * S8x128.size a + S8x128.size a := by
  show i ∈ ((View.whole main_v0).slice (win0_2.rect t)).set ↔ _
  rw [View.set_slice_whole, Rect.mem_set_unit]
  exact Iff.rfl

/-- Every index of the result array is in some point's block: row b in the block of point b / 8. -/
theorem cover (i : S64x128.Idx) : ∃ t : Fin cfg0.N, (cfg0.win 2).flush t = true ∧ i ∈ ((cfg0.win 2).blk t).view.set := by
  have hi0 : (i 0).val < 64 := (i 0).isLt
  have hi1 : (i 1).val < 128 := (i 1).isLt
  have hN : cfg0.N = 8 := N_0
  have ht : (i 0).val / 8 < cfg0.N := by rw [hN]; omega
  obtain ⟨-, -, -, -, -, -, -, e7, e8⟩ := idx_facts ⟨(i 0).val / 8, ht⟩
  refine ⟨⟨(i 0).val / 8, ht⟩, flush0_2 _, ?_⟩
  rw [mem_blk]
  intro a
  match a with
  | ⟨0, _⟩ =>
    show win0_2.index ⟨(i 0).val / 8, ht⟩ (0 : Fin 2) * 8 ≤ (i 0).val
      ∧ (i 0).val < win0_2.index ⟨(i 0).val / 8, ht⟩ (0 : Fin 2) * 8 + 8
    rw [e7]
    show (i 0).val / 8 * 8 ≤ (i 0).val ∧ (i 0).val < (i 0).val / 8 * 8 + 8
    omega
  | ⟨1, _⟩ =>
    show win0_2.index ⟨(i 0).val / 8, ht⟩ (1 : Fin 2) * 128 ≤ (i 1).val
      ∧ (i 1).val < win0_2.index ⟨(i 0).val / 8, ht⟩ (1 : Fin 2) * 128 + 128
    rw [e8]
    omega

/-- THE ARRAY after the run: row b holds sample b's value, over the argument arrays as launched. -/
theorem final (c : Dev nD) :
    (dats m 0 c).arrAt 2 cfg0.N = GK (m ((c : Thread nD τ).loc main_arg0)) (m ((c : Thread nD τ).loc main_arg1)) :=
  (dats m 0 c).arrAt_eq_of_cover 2 (GK (V m c main_arg0) (V m c main_arg1)) (fun t _ => flushed_eq m c t) cover

end Cert.KernelIdeal.Body

end
-- ==== Proof.KernelRun.lean ====
/-
  The kernel program's run, with its result named.

  After the call @main takes column 0 of the [64, 128] result array (a slice and a reshape to a 64-vector), sums the
  64 numbers from zero and divides by 64. The frame run leaves every array of the call at what the blocks wrote and every
  other buffer as the lines after the call leave it; the result array holds sample b's value on row b, so @main's result is
  those lines applied to that array.
-/
import proofs.«166067_j49306224558105_2_alg».proof.Proof.KernelArray
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-- The lines after the call, as a function of the result array: the mean of its column 0. -/
def tailOf {F : FTy → Type} [FloatOps F] (O : (⟨S64x128, .f32⟩ : BufTy).Contents (Elt F)) : (⟨S_, .f32⟩ : BufTy).Contents (Elt F) :=
  Host.divf (F := F)
    (Host.reduceAdd (F := F) (shapeCast S64 (extractStridedSlice S64x1 ![0, 0] O slices_S64x128_S64x1_0_0) shapeCasts_S64x1_S64)
      (constant (F := F) S_ .f32 0x00000000#32) reducesTo_S64_S_d0 h_S_)
    (constant (F := F) S_ .f32 0x42800000#32)

variable (m : (ℓ : Loc nD τ sig) → Buf (Elt Ideal) ℓ) (ρ : Dev nD → PrngReg)

/-- @main's result after the lines that follow the call. -/
theorem tail_eq (c : Dev nD) :
    Pipeline.afterTail₀ cfgs (dats m) 0 (V0 m) [hostOps1] c main_v4
      = tailOf (F := Ideal) (GK (m ((c : Thread nD τ).loc main_arg0)) (m ((c : Thread nD τ).loc main_arg1))) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v0)
      = GK (m ((c : Thread nD τ).loc main_arg0)) (m ((c : Thread nD τ).loc main_arg1)) :=
    (Pipeline.withArrays_arr spec0 launch0.win.arr_inj c _ _ 2).trans (final m c)
  rw [e]
  rfl

/-- THE KERNEL PROGRAM'S RUN: every weakly fair execution terminates with @main's result at the mean of the 64 sample
    values and the argument arrays unchanged. -/
theorem run : θ_run defs (onTc (τ := τ) (main (F := Ideal))) ⟨m, fun _ => 0, ρ⟩ fun r => ∀ c : Dev nD,
      r.2.mem ((c : Thread nD τ).loc main_v4)
        = tailOf (F := Ideal) (GK (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v4 (by decide)).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Body

end
-- ==== Proof.LibSums.lean ====
/-
  Sums over rank-3 index sets, by coordinates. A rank-3 index set is the product of its three coordinate ranges, so a
  sum over it is a triple sum; it is also the product of its leading coordinate with the rank-2 index set of the other
  two. A leading axis of extent T·B is T consecutive blocks of B rows, so a sum over a [T·B, R, C] array is the sum
  over the T blocks of the sums over each [B, R, C] block. All in any additive commutative monoid, generic in the extents.
-/
import Idealize.ShloMosaic.Lib.ValueIdx
import Mathlib.Algebra.BigOperators.Fin
import Mathlib.Logic.Equiv.Fin.Basic

noncomputable section

open scoped BigOperators

namespace Cert.LibSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-3 index set is the sum over the leading coordinate of the sums over the rank-2 index set of the
    other two. -/
theorem sum_idx3_lead {M : Type*} [AddCommMonoid M] {n0 n1 n2 : Nat} (f : (⟨3, ![n0, n1, n2]⟩ : Shape).Idx → M) :
    ∑ i, f i = ∑ a : Fin n0, ∑ j : (⟨2, ![n1, n2]⟩ : Shape).Idx, f (ix3 a (j 0) (j 1)) := by
  rw [sum_idx3]
  refine Finset.sum_congr rfl fun a _ => ?_
  rw [sum_idx2]
  rfl

/-- A sum over `Fin (T * B)` is the sum over `T` blocks of the sums over the `B` offsets inside each block. -/
theorem sum_fin_mul {M : Type*} [AddCommMonoid M] {T B : Nat} (h : Fin (T * B) → M) :
    ∑ x, h x = ∑ t : Fin T, ∑ y : Fin B,
      h ⟨t.val * B + y.val, by
        have ht := t.isLt; have hy := y.isLt
        calc t.val * B + y.val < t.val * B + B := by omega
          _ = (t.val + 1) * B := by ring
          _ ≤ T * B := Nat.mul_le_mul_right B ht⟩ := by
  rw [← Equiv.sum_comp finProdFinEquiv h, Fintype.sum_prod_type]
  refine Finset.sum_congr rfl fun t _ => Finset.sum_congr rfl fun y _ => congrArg h (Fin.ext ?_)
  show y.val + B * t.val = t.val * B + y.val
  rw [Nat.mul_comm, Nat.add_comm]

/-- Row `y` of block `t`, as an index of the whole [T·B, R, C] array. -/
def blockIdx {T B R C : Nat} (t : Fin T) (y : (⟨3, ![B, R, C]⟩ : Shape).Idx) : (⟨3, ![T * B, R, C]⟩ : Shape).Idx :=
  ix3 ⟨t.val * B + (y 0).val, by
    have ht := t.isLt; have hy : (y 0).val < B := (y 0).isLt
    calc t.val * B + (y 0).val < t.val * B + B := by omega
      _ = (t.val + 1) * B := by ring
      _ ≤ T * B := Nat.mul_le_mul_right B ht⟩ (y 1) (y 2)

/-- A sum over a [T·B, R, C] array is the sum over its T blocks of `B` rows of the sums over each block. -/
theorem sum_blocks {M : Type*} [AddCommMonoid M] {T B R C : Nat} (f : (⟨3, ![T * B, R, C]⟩ : Shape).Idx → M) :
    ∑ z, f z = ∑ t : Fin T, ∑ y : (⟨3, ![B, R, C]⟩ : Shape).Idx, f (blockIdx t y) := by
  rw [sum_idx3, sum_fin_mul]
  refine Finset.sum_congr rfl fun t _ => ?_
  rw [sum_idx3]
  rfl

end Cert.LibSums

end
-- ==== Proof.LibTrailingSum.lean ====
/-
  The host's float sum of a rank-3 array over its two trailing axes, read at an index.

  At the ideal values a host `reduce … add` of an `[n0, n1, n2]` array across dimensions [1, 2] reads, at `a`, the
  initial value plus the double sum `∑ r, ∑ c, x (a, r, c)`: the indices that reduce to `a` are exactly the
  `(a, r, c)`. For any extents (this is what `jnp.sum(x, axis=(1, 2))` and `jnp.mean(x, axis=(1, 2))` of a batch of
  images print as).
-/
import Idealize.ShloMosaic.Lib.ValueIdx
import Idealize.ShloMosaic.PureOps.Ideal
import proofs.«166067_j49306224558105_2_alg».proof.Proof.LibSums

noncomputable section

open scoped BigOperators

namespace Cert.LibTrailingSum

open Idealize.ShloMosaic Idealize.ShloMosaic.ValueIdx

/-- The sum across the two trailing axes, read at the leading coordinate `a`: `init + ∑ r, ∑ c, x (a, r, c)`. -/
theorem hostReduceAdd_trailing2_apply {n0 n1 n2 : ℕ}
    (h : (⟨3, ![n0, n1, n2]⟩ : Shape).ReducesTo [1, 2] ⟨1, ![n0]⟩)
    (x : (⟨3, ![n0, n1, n2]⟩ : Shape).Idx → EReal) (init : EReal) (a : Fin n0) :
    Ideal.hostReduceAdd h x init (ix1 a) = init + ∑ r : Fin n1, ∑ c : Fin n2, x (ix3 a r c) := by
  unfold Ideal.hostReduceAdd
  congr 1
  rw [Finset.sum_filter, Cert.LibSums.sum_idx3]
  have hd : ∀ (a' : Fin n0) (r : Fin n1) (c : Fin n2), h.drop (ix3 a' r c) = ix1 a' := fun a' r c => by
    funext b
    match b with
    | ⟨0, _⟩ => rfl
  simp only [hd]
  rw [Finset.sum_eq_single a]
  · simp
  · intro a' _ hne
    have hne' : ¬ix1 a' = ix1 a := fun e => hne (congrFun e 0)
    simp [hne']
  · intro h'
    exact absurd (Finset.mem_univ a) h'

end Cert.LibTrailingSum

end
-- ==== Proof.RefValue.lean ====
/-
  The reference program's result, read one operation at a time.

  For each sample b the reference forms the mask T = 1 where the target is positive, else 0; the pixel values
  α(T) · (1 − pt)^2 · bce with σ = 1/(1 + e^(−x)); their sum S over the sample's two image axes, from zero, and the
  foreground count fg the same way; the sample's value (S / 262144) · w(fg) with the size weight w spelt with the power
  1/2; and then the mean of the 64 sample values (their sum from zero, divided by 64).
-/
import proofs.«166067_j49306224558105_2_alg».proof.Proof.RefReadPatched
import proofs.«166067_j49306224558105_2_alg».proof.Proof.FocalLaw
import proofs.«166067_j49306224558105_2_alg».proof.Proof.LibTrailingSum

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx
open scoped BigOperators

/-- The mask value of a target word, as the reference forms it: the comparison's bit read as a number. -/
def maskR (w : BitVec 32) : EReal := FloatOps.uitofp (F := Ideal) .f32 (IntOp.cmpi .sgt w 0#32)

/-- The reference's value of sample b, over the whole argument arrays. -/
def perSampleR (A0 : S64x1x512x512.Idx → EReal) (A1 : S64x512x512.Idx → BitVec 32) (b : Fin 64) : EReal :=
  FocalLaw.perR
    (FocalLaw.W0 + ∑ r : Fin 512, ∑ c : Fin 512, FocalLaw.pixR (A0 (ix4 b 0 r c)) (maskR (A1 (ix3 b r c))))
    (FocalLaw.W0 + ∑ r : Fin 512, ∑ c : Fin 512, maskR (A1 (ix3 b r c)))

/-- The reshape that drops the logits' channel axis reads (b, r, c) at (b, 0, r, c). -/
theorem idx0 (b : Fin 64) (r c : Fin 512) : idx_main_v0 (ix3 b r c) = ix4 b (0 : Fin 1) r c := by
  have hb := b.isLt; have hr := r.isLt; have hc := c.isLt
  funext a
  apply Fin.ext
  match a with
  | ⟨0, _⟩ => show ((b.val * 512 + r.val) * 512 + c.val) / 262144 = b.val; omega
  | ⟨1, _⟩ => rfl
  | ⟨2, _⟩ => show ((b.val * 512 + r.val) * 512 + c.val) / 512 % 512 = r.val; omega
  | ⟨3, _⟩ => show ((b.val * 512 + r.val) * 512 + c.val) % 512 = c.val; omega

variable (x0 : (⟨S64x1x512x512, .f32⟩ : BufTy).Contents (Elt Ideal)) (x1 : (⟨S64x512x512, .i32⟩ : BufTy).Contents (Elt Ideal))

/-- The mask stage at a pixel. -/
theorem mask_stage (b : Fin 64) (r c : Fin 512) : val_main_v3 (F := Ideal) x1 (ix3 b r c) = maskR (x1 (ix3 b r c)) := by
  simp only [val_main_v3_apply, val_main_v2_apply, val_main_v1_apply, val_main_c_apply]
  rfl

/-- The weighted pixel stage at a pixel. -/
theorem pixel_stage (b : Fin 64) (r c : Fin 512) :
    val_main_v45 (F := Ideal) x0 x1 (ix3 b r c) = FocalLaw.pixR (x0 (ix4 b 0 r c)) (maskR (x1 (ix3 b r c))) := by
  simp only [val_main_v45_apply, val_main_v44_apply, val_main_v43_apply, val_main_v42_apply, val_main_v41_apply, val_main_cst_13_apply, val_main_call2_v0_apply, val_main_call2_v1_apply, val_main_cst_14_apply, val_main_cst_15_apply, val_main_v40_apply, val_main_v39_apply, val_main_v38_apply, val_main_cst_12_apply, val_main_v37_apply, val_main_v36_apply, val_main_cst_11_apply, val_main_v35_apply, val_main_v34_apply, val_main_v33_apply, val_main_cst_10_apply, val_main_v32_apply, val_main_v31_apply, val_main_cst_9_apply, val_main_v30_apply, val_main_v29_apply, val_main_v28_apply, val_main_v27_apply, val_main_v26_apply, val_main_v25_apply, val_main_v24_apply, val_main_v23_apply, val_main_v22_apply, val_main_cst_8_apply, val_main_v9_apply, val_main_v8_apply, val_main_cst_0_apply, val_main_v7_apply, val_main_v6_apply, val_main_cst_apply, val_main_v5_apply, val_main_v4_apply, val_main_v3_apply, val_main_v2_apply, val_main_v1_apply, val_main_c_apply, val_main_v0_apply]
  rw [idx0]
  rfl

/-- The foreground count of sample b: from zero, the double sum of the mask. -/
theorem count_stage (b : Fin 64) :
    val_main_v10 (F := Ideal) x1 (ix1 b) = FocalLaw.W0 + ∑ r : Fin 512, ∑ c : Fin 512, maskR (x1 (ix3 b r c)) := by
  unfold val_main_v10
  simp only [Host.reduceAdd, Ideal.hostReduceAdd_def]
  rw [LibTrailingSum.hostReduceAdd_trailing2_apply]
  simp only [mask_stage]
  rfl

/-- The pixel total of sample b: from zero, the double sum of the weighted pixels. -/
theorem total_stage (b : Fin 64) :
    val_main_v46 (F := Ideal) x0 x1 (ix1 b)
      = FocalLaw.W0 + ∑ r : Fin 512, ∑ c : Fin 512, FocalLaw.pixR (x0 (ix4 b 0 r c)) (maskR (x1 (ix3 b r c))) := by
  unfold val_main_v46
  simp only [Host.reduceAdd, Ideal.hostReduceAdd_def]
  rw [LibTrailingSum.hostReduceAdd_trailing2_apply]
  simp only [pixel_stage]
  rfl

/-- THE SAMPLE STAGE: the 64-vector the reference averages holds sample b's value at b. -/
theorem sample_stage (b : Fin 64) : val_main_v49 (F := Ideal) x0 x1 (ix1 b) = perSampleR x0 x1 b := by
  simp only [val_main_v49_apply, val_main_v48_apply, val_main_v47_apply, val_main_cst_17_apply, val_main_v21_apply, val_main_v20_apply, val_main_v19_apply, val_main_cst_6_apply, val_main_v18_apply, val_main_v17_apply, val_main_cst_5_apply, val_main_v16_apply, val_main_v15_apply, val_main_cst_4_apply, val_main_v14_apply, val_main_v13_apply, val_main_cst_3_apply, val_main_v12_apply, val_main_v11_apply, val_main_cst_2_apply, val_main_call0_v1_apply, val_main_call0_v0_apply, val_main_cst_7_apply]
  rw [total_stage, count_stage]
  rfl

end Cert.ReferenceIdeal.RefValue

end
-- ==== Proof.LibLogisticMask.lean ====
/-
  General facts, free of any kernel's shapes or literals.

  On the extended reals the logistic function 1 / (1 + exp (-x)), with the conventions exp (-inf) = 0, exp (+inf) = +inf,
  1 / +inf = 0, exceeds one half exactly when x is positive: a threshold on a sigmoid at 1/2 is a sign test on the logit.

  A one-bit truth value is 0 or 1; turned into a float by widening it to 32 bits and reading it signed, or by reading
  the one bit unsigned, it is the same number; and exclusive-or with the true bit is negation.
-/
import Idealize.ShloMosaic.PureOps.Ideal
import Idealize.ShloMosaic.PureOps.Ideal.Laws

noncomputable section

namespace Cert.LibLogisticMask

open Idealize.ShloMosaic

/-- The logistic of x exceeds one half exactly when x is positive, on every extended real. -/
theorem half_lt_logistic_iff (x : EReal) :
    ((1 / 2 : ℝ) : EReal) < Ideal.div 1 (1 + Ideal.exp (-x)) ↔ 0 < x := by
  induction x using EReal.rec with
  | bot =>
    rw [EReal.neg_bot, Ideal.exp_top, EReal.add_top_of_ne_bot (by decide)]
    unfold Ideal.div
    rw [if_neg EReal.top_ne_zero, EReal.inv_top, mul_zero]
    constructor
    · intro h; exact absurd h (by rw [← EReal.coe_zero, EReal.coe_lt_coe_iff]; norm_num)
    · intro h; exact absurd h (not_lt_bot)
  | top =>
    rw [EReal.neg_top, Ideal.exp_bot, add_zero]
    unfold Ideal.div
    rw [if_neg one_ne_zero, inv_one, mul_one]
    constructor
    · intro _; exact EReal.zero_lt_top
    · intro _; rw [← EReal.coe_one, EReal.coe_lt_coe_iff]; norm_num
  | coe r =>
    have hpos : (0 : ℝ) < 1 + Real.exp (-r) := by positivity
    rw [← EReal.coe_neg, Ideal.exp_coe, ← EReal.coe_one, ← EReal.coe_add, Ideal.div_coe (ne_of_gt hpos),
      EReal.coe_one, one_mul, EReal.coe_lt_coe_iff, EReal.coe_pos,
      one_div_lt_one_div (by norm_num) hpos]
    constructor
    · intro h
      have h1 : Real.exp (-r) < 1 := by linarith
      have := Real.exp_lt_one_iff.mp h1
      linarith
    · intro h
      have h1 : Real.exp (-r) < 1 := Real.exp_lt_one_iff.mpr (by linarith)
      linarith

/-- A one-bit truth value is 0 or 1. -/
theorem bit_cases (b : BitVec 1) : b = 0#1 ∨ b = 1#1 := by
  by_cases h : b = 1#1
  · exact Or.inr h
  · refine Or.inl ?_
    have hlt : b.toNat < 2 := b.isLt
    apply BitVec.eq_of_toNat_eq
    have : b.toNat ≠ 1 := fun e => h (BitVec.eq_of_toNat_eq e)
    show b.toNat = 0
    omega

/-- Widened to 32 bits and read signed, or read unsigned as it is, a truth value is the same number. -/
theorem mask_signed_eq_unsigned (b : BitVec 1) :
    FloatOps.sitofp (F := Ideal) .f32 (b.setWidth 32) = FloatOps.uitofp (F := Ideal) .f32 b := by
  show (((b.setWidth 32).toInt : ℝ) : EReal) = ((b.toNat : ℝ) : EReal)
  rcases bit_cases b with rfl | rfl
  · have e : ((0#1 : BitVec 1).setWidth 32).toInt = 0 := by decide
    rw [e]; rfl
  · have e : ((1#1 : BitVec 1).setWidth 32).toInt = 1 := by decide
    rw [e]; rfl

/-- Exclusive-or with the true bit is negation. -/
theorem xor_true_eq_not (b : BitVec 1) : IntOp.xori b 1#1 = ~~~b := by
  rcases bit_cases b with rfl | rfl <;> decide

end Cert.LibLogisticMask

end
-- ==== Proof.Bridge.lean ====
/-
  The two programs compute one number.

  Sample by sample the kernel's value and the reference's are the same extended real when the logits are real numbers:
  the mask is the same number whether the comparison's bit is widened and read signed or read unsigned as it is; the
  pixels agree by the pixel law; the kernel's totals are plain sums and the reference's are sums from zero, and 0 + s = s;
  the scale and the size weight agree by the sample law. Both programs then average the same 64 numbers the same way
  (the kernel from column 0 of its result array, where row b holds sample b's value).
-/
import proofs.«166067_j49306224558105_2_alg».proof.Proof.KernelRun
import proofs.«166067_j49306224558105_2_alg».proof.Proof.RefValue
import proofs.«166067_j49306224558105_2_alg».proof.Proof.LibLogisticMask

set_option maxRecDepth 16384

noncomputable section

namespace Cert.Proof.Bridge

open Idealize.ShloMosaic Idealize.ShloMosaic.TcCoe Idealize.SL.Sem Idealize.ShloMosaic.ValueIdx
open Cert.KernelIdeal.Body (perSampleK GK tailOf maskK)
open Cert.ReferenceIdeal.RefValue (perSampleR maskR)
open scoped BigOperators

/-- The mask is one number under both readings of the comparison's bit. -/
theorem mask_eq (w : BitVec 32) : maskK w = maskR w := LibLogisticMask.mask_signed_eq_unsigned _

/-- SAMPLE BY SAMPLE the two values agree, when every logit is a real number. -/
theorem perSample_eq (A0 : Cert.KernelIdeal.S64x1x512x512.Idx → EReal) (A1 : Cert.KernelIdeal.S64x512x512.Idx → BitVec 32)
    (hfin : ∀ i, ∃ r : ℝ, A0 i = (r : EReal)) (b : Fin 64) : perSampleK A0 A1 b = perSampleR A0 A1 b := by
  unfold perSampleK perSampleR
  rw [FocalLaw.perK_eq, FocalLaw.w0, zero_add, zero_add]
  simp only [mask_eq]
  have hp : ∀ r c : Fin 512, FocalLaw.pixK (A0 (ix4 b 0 r c)) (maskR (A1 (ix3 b r c)))
      = FocalLaw.pixR (A0 (ix4 b 0 r c)) (maskR (A1 (ix3 b r c))) := fun r c => by
    obtain ⟨x, hx⟩ := hfin (ix4 b 0 r c)
    rw [hx, FocalLaw.pixK_eq]
  simp only [hp]

/-- Column 0 of the kernel's result array, as a 64-vector, is the vector the reference averages. -/
theorem column_eq (A0 : Cert.KernelIdeal.S64x1x512x512.Idx → EReal) (A1 : Cert.KernelIdeal.S64x512x512.Idx → BitVec 32)
    (hfin : ∀ i, ∃ r : ℝ, A0 i = (r : EReal)) :
    shapeCast Cert.KernelIdeal.S64 (extractStridedSlice Cert.KernelIdeal.S64x1 ![0, 0] (GK A0 A1) Cert.KernelIdeal.Facts₀.slices_S64x128_S64x1_0_0)
        Cert.KernelIdeal.Facts₀.shapeCasts_S64x1_S64
      = Cert.ReferenceIdeal.ReadP.val_main_v49 (F := Ideal) A0 A1 := by
  funext j
  obtain ⟨b, rfl⟩ : ∃ b : Fin 64, j = ix1 b := ⟨j 0, eq_ix1 j⟩
  rw [Cert.ReferenceIdeal.RefValue.sample_stage, ← perSample_eq A0 A1 hfin b]
  rw [shapeCast_apply _ _ (ix1 b) (ix2 b (0 : Fin 1)) (by
    rw [Shape.rowMajor_val_two, Shape.rowMajor_val_one]
    show b.val * 1 + 0 = b.val
    omega)]
  rw [extractStridedSlice_apply _ _ _ (ix2 b (0 : Fin 1)) (ix2 b (0 : Fin 128)) (fun a => by
    match a with
    | ⟨0, _⟩ => show b.val = 0 + b.val; omega
    | ⟨1, _⟩ => rfl)]
  rfl

/-- THE RESULTS AGREE: the kernel's lines after the call, applied to its result array, give the reference's last stage. -/
theorem result_eq (A0 : Cert.KernelIdeal.S64x1x512x512.Idx → EReal) (A1 : Cert.KernelIdeal.S64x512x512.Idx → BitVec 32)
    (hfin : ∀ i, ∃ r : ℝ, A0 i = (r : EReal)) :
    Cert.ReferenceIdeal.ReadP.val_main_v51 (F := Ideal) A0 A1 = tailOf (F := Ideal) (GK A0 A1) := by
  unfold tailOf
  rw [column_eq A0 A1 hfin]
  rfl

end Cert.Proof.Bridge

end
-- ==== Proof.Finite.lean ====
/-
  The precondition read back: every logit is a real number.

  `finite_inputs` states that |x| < +∞ at every entry of the logits array, as one conjunction over all entries that
  came out true. An extended real whose absolute value max(x, −x) is below +∞ is neither −∞ nor +∞: it is a real number.
-/
import proofs.«166067_j49306224558105_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Proof.Finite

open Idealize.ShloMosaic

/-- The infinity word denotes +∞. -/
theorem inf_word : Ideal.ofBits .f32 0x7F800000#32 = ⊤ := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under `finite_inputs` every entry of the logits array is a real number. -/
theorem real_of_pre [Cert.Pre_finite_inputs.Facts] (A0 : FVec Ideal Cert.Pre_finite_inputs.S64x1x512x512 .f32)
    (A1 : IVec Cert.Pre_finite_inputs.S64x512x512 32)
    (h : Cert.Pre_finite_inputs.fn (F := Ideal) A0 A1 = fun _ => 1#1) (i : Cert.Pre_finite_inputs.S64x1x512x512.Idx) :
    ∃ r : ℝ, A0 i = (r : EReal) := by
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  have hc : Ideal.cmp .olt (max (A0 i) (-(A0 i))) (Ideal.ofBits .f32 0x7F800000#32) = 1#1 := hi
  rw [inf_word] at hc
  apply real_of_abs_lt_top
  have hc' : BitVec.ofBool (decide (max (A0 i) (-(A0 i)) < (⊤ : EReal))) = 1#1 := hc
  by_cases hlt : max (A0 i) (-(A0 i)) < (⊤ : EReal)
  · exact hlt
  · rw [decide_eq_false hlt] at hc'
    exact absurd hc' (by decide)

end Cert.Proof.Finite

end
-- ==== Proof.lean ====
/-
  The size-weighted focal loss of a batch of 64 single-channel 512 × 512 images: a Pallas kernel against its jnp
  reference, equal on the extended reals whenever the logits are finite.

  For each sample both programs compute
    mean over the pixels of  α(T) · (1 − pt)² · bce      times      w(fg),
  with T the foreground mask (target > 0), bce = max(x, 0) − x·T + log(1 + e^(−|x|)), pt the logistic of the logit on the
  foreground and one minus it elsewhere, α = 1/4 on the foreground and 3/4 elsewhere, fg the number of foreground pixels
  and w(fg) = min(100/√max(fg, 1), 10) where fg > 0, else 1; the result is the mean of the 64 sample values.

  The kernel walks the batch in 8 blocks of 8 samples. For each block a loop of eight trips computes one sample's value
  per trip (the pixel values, their total and the foreground count by lane sums and a column sum, the product with 2⁻¹⁸ and
  the size weight) and adds it on that sample's row of an [8, 128] tile that starts at zero; the tile is the block's piece
  of a [64, 128] array, whose column 0 the lines after the call average. The reference computes the same numbers with
  whole-array operations. The two differ in spelling only: the logistic from a shared e^(−|x|) in two branches against
  1/(1 + e^(−x)); a product against the power 2; a square root against the power 1/2; a product with 2⁻¹⁸ against a
  quotient by 262144; sums taken in two steps against one sum from zero; a truth value widened and read signed against
  read unsigned. Proof/FocalLaw.lean has the arithmetic, Proof/Kernel*.lean the kernel's side from the generated frame
  run, Proof/RefValue.lean the reference's side from its run, Proof/Bridge.lean the comparison, Proof/Finite.lean what the
  precondition gives: every logit is a real number, which the logistic identity and the square need.
-/
import proofs.«166067_j49306224558105_2_alg».proof.Defs
import proofs.«166067_j49306224558105_2_alg».proof.Proof.Gen.Kernel
import proofs.«166067_j49306224558105_2_alg».proof.Proof.Gen.Kernel.Skeleton
import proofs.«166067_j49306224558105_2_alg».proof.Proof.Gen.Kernel.Loops
import proofs.«166067_j49306224558105_2_alg».proof.Proof.Gen.Kernel.Launch
import proofs.«166067_j49306224558105_2_alg».proof.Proof.Gen.Kernel.Points
import proofs.«166067_j49306224558105_2_alg».proof.Proof.Gen.Kernel.Frame
import proofs.«166067_j49306224558105_2_alg».proof.Proof.Gen.KernelIdeal
import proofs.«166067_j49306224558105_2_alg».proof.Proof.Gen.KernelIdeal.Skeleton
import proofs.«166067_j49306224558105_2_alg».proof.Proof.Gen.KernelIdeal.Loops
import proofs.«166067_j49306224558105_2_alg».proof.Proof.Gen.KernelIdeal.Launch
import proofs.«166067_j49306224558105_2_alg».proof.Proof.Gen.KernelIdeal.Points
import proofs.«166067_j49306224558105_2_alg».proof.Proof.Gen.KernelIdeal.Frame
import proofs.«166067_j49306224558105_2_alg».proof.Proof.Gen.ReferenceIdeal
import proofs.«166067_j49306224558105_2_alg».proof.Proof.Gen.Pre_finite_inputs
import Idealize.ShloMosaic.Adequacy
import Idealize.ShloMosaic.Init
import proofs.«166067_j49306224558105_2_alg».proof.Proof.Bridge
import proofs.«166067_j49306224558105_2_alg».proof.Proof.Finite

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- On the extended reals the kernel's result is the mean of the 64 sample values as it computes them, the reference's
    the mean of the 64 sample values as it computes them, of arguments that agree; under the precondition every logit is
    a real number and the sample values agree one by one. -/
theorem algebraic : Cert.algebraic_KernelIdeal_ReferenceIdeal := by
  intro m ρ m' ρ' hpre hagree
  refine ⟨fun c => Cert.KernelIdeal.Body.tailOf (F := Ideal)
      (Cert.KernelIdeal.Body.GK (m ((c.tc : Thread Cert.KernelIdeal.nD Cert.KernelIdeal.τ).loc Cert.KernelIdeal.main_arg0))
        (m ((c.tc : Thread Cert.KernelIdeal.nD Cert.KernelIdeal.τ).loc Cert.KernelIdeal.main_arg1))),
    Cert.KernelIdeal.Body.run m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.ReadP.val_main_v51_eq (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))).trans ?_
  rw [(hagree c).1, (hagree c).2]
  exact Bridge.result_eq _ _ (fun i => Finite.real_of_pre _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
